-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S512 : Shape := ⟨1, ![512]⟩
abbrev S512x100 : Shape := ⟨2, ![512, 100]⟩
abbrev S100 : Shape := ⟨1, ![100]⟩
abbrev S100x10 : Shape := ⟨2, ![100, 10]⟩
abbrev S10 : Shape := ⟨1, ![10]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S512 : S_.BroadcastsInDim S512 (![] : Fin 0 → Fin S512.rank)
  reducesTo_S512_S_d0 : S512.ReducesTo [0] S_
  bcast_S_S512x100 : S_.BroadcastsInDim S512x100 (![] : Fin 0 → Fin S512x100.rank)
  reducesTo_S512x100_S_d0_1 : S512x100.ReducesTo [0, 1] S_
  bcast_S_S100 : S_.BroadcastsInDim S100 (![] : Fin 0 → Fin S100.rank)
  reducesTo_S100_S_d0 : S100.ReducesTo [0] S_
  bcast_S_S100x10 : S_.BroadcastsInDim S100x10 (![] : Fin 0 → Fin S100x10.rank)
  reducesTo_S100x10_S_d0_1 : S100x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S100 .f32) (main_arg5 : FVec F S100x10 .f32) (main_arg6 : FVec F S10 .f32) (main_v13 : IVec S_ 1) (main_v16 : IVec S512x100 1) : IVec S_ 1 :=
  let main_c_5 : IVec S_ 1 := constantI S_ 1 1#1
  let main_v17 : IVec S_ 1 := (fun x v => Host.reduce IntOp.andi x v reducesTo_S512x100_S_d0_1 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x10 .f32 := Host.absf main_arg5
  let main_cst_8 : FVec F S_ .f32 := constant S_ .f32 0x7F800000#32
  let main_v25 : FVec F S100x10 .f32 := broadcastInDim S100x10 ![] bcast_S_S100x10 main_cst_8
  let main_v26 : IVec S100x10 1 := cmpf .olt main_v24 main_v25
  let main_c_9 : IVec S_ 1 := constantI S_ 1 1#1
  let main_v27 : IVec S_ 1 := (fun x v => Host.reduce IntOp.andi x v reducesTo_S100x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S262144x512 .f32) (main_arg1 : FVec F S512 .f32) (main_arg2 : FVec F S512 .f32) (main_arg3 : FVec F S512x100 .f32) (main_arg4 : FVec F S100 .f32) (main_arg5 : FVec F S100x10 .f32) (main_arg6 : FVec F S10 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x100 .f32 := Host.absf main_arg3
  let main_cst_4 : FVec F S_ .f32 := constant S_ .f32 0x7F800000#32
  let main_v15 : FVec F S512x100 .f32 := broadcastInDim S512x100 ![] bcast_S_S512x100 main_cst_4
  let main_v16 : IVec S512x100 1 := cmpf .olt main_v14 main_v15
  fn_part1 (F := F) main_arg4 main_arg5 main_arg6 main_v13 main_v16
-- ==== Kernel.lean ====
abbrev S262144x512 : Shape := ⟨2, ![262144, 512]⟩
abbrev S512 : Shape := ⟨1, ![512]⟩
abbrev S512x100 : Shape := ⟨2, ![512, 100]⟩
abbrev S100 : Shape := ⟨1, ![100]⟩
abbrev S100x10 : Shape := ⟨2, ![100, 10]⟩
abbrev S10 : Shape := ⟨1, ![10]⟩
abbrev S262144x10 : Shape := ⟨2, ![262144, 10]⟩
abbrev S4096x512 : Shape := ⟨2, ![4096, 512]⟩
abbrev S4096x10 : Shape := ⟨2, ![4096, 10]⟩
abbrev S4096 : Shape := ⟨1, ![4096]⟩
abbrev S4096x1 : Shape := ⟨2, ![4096, 1]⟩
abbrev S1x512 : Shape := ⟨2, ![1, 512]⟩
abbrev S4096x100 : Shape := ⟨2, ![4096, 100]⟩
abbrev S1x100 : Shape := ⟨2, ![1, 100]⟩
abbrev S1x10 : Shape := ⟨2, ![1, 10]⟩

abbrev nBuf : Space → Nat
  | .hbm => 8
  | .vmem => 10
  | .smem => 0
  | _ => 0

abbrev bufTy : (tb : Table) → Fin (tcTables nBuf tb) → BufTy
  | .hbm, ⟨0, _⟩ => ⟨S262144x512, .f32⟩
  | .hbm, ⟨1, _⟩ => ⟨S512, .f32⟩
  | .hbm, ⟨2, _⟩ => ⟨S512, .f32⟩
  | .hbm, ⟨3, _⟩ => ⟨S512x100, .f32⟩
  | .hbm, ⟨4, _⟩ => ⟨S100, .f32⟩
  | .hbm, ⟨5, _⟩ => ⟨S100x10, .f32⟩
  | .hbm, ⟨6, _⟩ => ⟨S10, .f32⟩
  | .hbm, ⟨7, _⟩ => ⟨S262144x10, .f32⟩
  | .local _ .vmem, ⟨0, _⟩ => ⟨S4096x512, .f32⟩
  | .local _ .vmem, ⟨1, _⟩ => ⟨S4096x512, .f32⟩
  | .local _ .vmem, ⟨2, _⟩ => ⟨S512, .f32⟩
  | .local _ .vmem, ⟨3, _⟩ => ⟨S512, .f32⟩
  | .local _ .vmem, ⟨4, _⟩ => ⟨S512x100, .f32⟩
  | .local _ .vmem, ⟨5, _⟩ => ⟨S100, .f32⟩
  | .local _ .vmem, ⟨6, _⟩ => ⟨S100x10, .f32⟩
  | .local _ .vmem, ⟨7, _⟩ => ⟨S10, .f32⟩
  | .local _ .vmem, ⟨8, _⟩ => ⟨S4096x10, .f32⟩
  | .local _ .vmem, ⟨9, _⟩ => ⟨S4096x10, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S4096x512_S4096x512_0_0 : ∀ a, (![0, 0] : Fin 2 → Nat) a + S4096x512.size a ≤ S4096x512.size a
  h_S4096x512 : 0 < S4096x512.numel
  reduces_S4096x512_S4096 : S4096x512.Reduces [1] S4096
  shapeCasts_S4096_S4096x1 : S4096.ShapeCasts S4096x1
  broadcasts_S4096x1_S4096x512 : S4096x1.Broadcasts S4096x512
  inb_S512_S512_0 : ∀ a, (![0] : Fin 1 → Nat) a + S512.size a ≤ S512.size a
  h_S512 : 0 < S512.numel
  shapeCasts_S512_S1x512 : S512.ShapeCasts S1x512
  broadcasts_S1x512_S4096x512 : S1x512.Broadcasts S4096x512
  bitsLt_bf16_f32 : FTy.bits .bf16 < FTy.bits .f32
  inb_S512x100_S512x100_0_0 : ∀ a, (![0, 0] : Fin 2 → Nat) a + S512x100.size a ≤ S512x100.size a
  h_S512x100 : 0 < S512x100.numel
  inb_S100_S100_0 : ∀ a, (![0] : Fin 1 → Nat) a + S100.size a ≤ S100.size a
  h_S100 : 0 < S100.numel
  shapeCasts_S100_S1x100 : S100.ShapeCasts S1x100
  broadcasts_S1x100_S4096x100 : S1x100.Broadcasts S4096x100
  inb_S100x10_S100x10_0_0 : ∀ a, (![0, 0] : Fin 2 → Nat) a + S100x10.size a ≤ S100x10.size a
  h_S100x10 : 0 < S100x10.numel
  inb_S10_S10_0 : ∀ a, (![0] : Fin 1 → Nat) a + S10.size a ≤ S10.size a
  h_S10 : 0 < S10.numel
  shapeCasts_S10_S1x10 : S10.ShapeCasts S1x10
  broadcasts_S1x10_S4096x10 : S1x10.Broadcasts S4096x10
  inb_S4096x10_S4096x10_0_0 : ∀ a, (![0, 0] : Fin 2 → Nat) a + S4096x10.size a ≤ S4096x10.size a
  h_S4096x10 : 0 < S4096x10.numel
  dot_S4096x512_S512x100_S4096x100_1_0_0_1_n_n_wf : DotDims.WF S4096x512 S512x100 S4096x100 [1] [0] [0] [1] [] []
  dot_S4096x100_S100x10_S4096x10_1_0_0_1_n_n_wf : DotDims.WF S4096x100 S100x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x100.size a ≤ S512x100.size a
  hwx0_3 : ∀ i : grid0.Coords, EltTy.bits .f32 = 32 ∨ (Rect.block (s := S512x100) S512x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100.size a ≤ S100.size a
  hwx0_4 : ∀ i : grid0.Coords, EltTy.bits .f32 = 32 ∨ (Rect.block (s := S100) S100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x10.size a ≤ S100x10.size a
  hwx0_5 : ∀ i : grid0.Coords, EltTy.bits .f32 = 32 ∨ (Rect.block (s := S100x10) S100x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10.size a ≤ S10.size a
  hwx0_6 : ∀ i : grid0.Coords, EltTy.bits .f32 = 32 ∨ (Rect.block (s := S10) S10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x10.size a ≤ S262144x10.size a
  hwx0_7 : ∀ i : grid0.Coords, EltTy.bits .f32 = 32 ∨ (Rect.block (s := S262144x10) S4096x10.size (cc0_transform_7 i) (hinb0_7 i)).WholeWords (EltTy.packing .f32)

variable [Facts₀]

def dot_S4096x512_S512x100_S4096x100_1_0_0_1_n_n : DotDims S4096x512 S512x100 S4096x100 where
  lhsContracting := [1]
  rhsContracting := [0]
  lhsNonContracting := [0]
  rhsNonContracting := [1]
  lhsBatch := []
  rhsBatch := []
  wf := dot_S4096x512_S512x100_S4096x100_1_0_0_1_n_n_wf
def dot_S4096x100_S100x10_S4096x10_1_0_0_1_n_n : DotDims S4096x100 S100x10 S4096x10 where
  lhsContracting := [1]
  rhsContracting := [0]
  lhsNonContracting := [0]
  rhsNonContracting := [1]
  lhsBatch := []
  rhsBatch := []
  wf := dot_S4096x100_S100x10_S4096x10_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S100x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S4096x10.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x512 : Shape := ⟨2, ![262144, 512]⟩
abbrev S512 : Shape := ⟨1, ![512]⟩
abbrev S512x100 : Shape := ⟨2, ![512, 100]⟩
abbrev S100 : Shape := ⟨1, ![100]⟩
abbrev S100x10 : Shape := ⟨2, ![100, 10]⟩
abbrev S10 : Shape := ⟨1, ![10]⟩
abbrev S_ : Shape := ⟨0, ![]⟩
abbrev S262144 : Shape := ⟨1, ![262144]⟩
abbrev S262144x1 : Shape := ⟨2, ![262144, 1]⟩
abbrev S1x512 : Shape := ⟨2, ![1, 512]⟩
abbrev S262144x100 : Shape := ⟨2, ![262144, 100]⟩
abbrev S1x100 : Shape := ⟨2, ![1, 100]⟩
abbrev S262144x10 : Shape := ⟨2, ![262144, 10]⟩
abbrev S1x10 : Shape := ⟨2, ![1, 10]⟩

abbrev nBuf : Space → Nat
  | .hbm => 53
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S512, .f32⟩
  | .hbm, ⟨2, _⟩ => ⟨S512, .f32⟩
  | .hbm, ⟨3, _⟩ => ⟨S512x100, .f32⟩
  | .hbm, ⟨4, _⟩ => ⟨S100, .f32⟩
  | .hbm, ⟨5, _⟩ => ⟨S100x10, .f32⟩
  | .hbm, ⟨6, _⟩ => ⟨S10, .f32⟩
  | .hbm, ⟨7, _⟩ => ⟨S_, .f32⟩
  | .hbm, ⟨8, _⟩ => ⟨S262144, .f32⟩
  | .hbm, ⟨9, _⟩ => ⟨S262144x1, .f32⟩
  | .hbm, ⟨10, _⟩ => ⟨S_, .f32⟩
  | .hbm, ⟨11, _⟩ => ⟨S262144x1, .f32⟩
  | .hbm, ⟨12, _⟩ => ⟨S262144x1, .f32⟩
  | .hbm, ⟨13, _⟩ => ⟨S262144x512, .f32⟩
  | .hbm, ⟨14, _⟩ => ⟨S262144x512, .f32⟩
  | .hbm, ⟨15, _⟩ => ⟨S262144x512, .f32⟩
  | .hbm, ⟨16, _⟩ => ⟨S_, .f32⟩
  | .hbm, ⟨17, _⟩ => ⟨S262144, .f32⟩
  | .hbm, ⟨18, _⟩ => ⟨S262144x1, .f32⟩
  | .hbm, ⟨19, _⟩ => ⟨S_, .f32⟩
  | .hbm, ⟨20, _⟩ => ⟨S262144x1, .f32⟩
  | .hbm, ⟨21, _⟩ => ⟨S262144x1, .f32⟩
  | .hbm, ⟨22, _⟩ => ⟨S262144x512, .f32⟩
  | .hbm, ⟨23, _⟩ => ⟨S262144x512, .f32⟩
  | .hbm, ⟨24, _⟩ => ⟨S_, .f32⟩
  | .hbm, ⟨25, _⟩ => ⟨S262144x1, .f32⟩
  | .hbm, ⟨26, _⟩ => ⟨S262144x1, .f32⟩
  | .hbm, ⟨27, _⟩ => ⟨S262144x1, .f32⟩
  | .hbm, ⟨28, _⟩ => ⟨S262144x512, .f32⟩
  | .hbm, ⟨29, _⟩ => ⟨S262144x512, .f32⟩
  | .hbm, ⟨30, _⟩ => ⟨S1x512, .f32⟩
  | .hbm, ⟨31, _⟩ => ⟨S262144x512, .f32⟩
  | .hbm, ⟨32, _⟩ => ⟨S262144x512, .f32⟩
  | .hbm, ⟨33, _⟩ => ⟨S1x512, .f32⟩
  | .hbm, ⟨34, _⟩ => ⟨S262144x512, .f32⟩
  | .hbm, ⟨35, _⟩ => ⟨S262144x512, .f32⟩
  | .hbm, ⟨36, _⟩ => ⟨S262144x100, .f32⟩
  | .hbm, ⟨37, _⟩ => ⟨S1x100, .f32⟩
  | .hbm, ⟨38, _⟩ => ⟨S262144x100, .f32⟩
  | .hbm, ⟨39, _⟩ => ⟨S262144x100, .f32⟩
  | .hbm, ⟨40, _⟩ => ⟨S262144x100, .f32⟩
  | .hbm, ⟨41, _⟩ => ⟨S262144x100, .f32⟩
  | .hbm, ⟨42, _⟩ => ⟨S_, .f32⟩
  | .hbm, ⟨43, _⟩ => ⟨S262144x100, .f32⟩
  | .hbm, ⟨44, _⟩ => ⟨S262144x100, .f32⟩
  | .hbm, ⟨45, _⟩ => ⟨S_, .f32⟩
  | .hbm, ⟨46, _⟩ => ⟨S262144x100, .f32⟩
  | .hbm, ⟨47, _⟩ => ⟨S262144x100, .f32⟩
  | .hbm, ⟨48, _⟩ => ⟨S262144x100, .f32⟩
  | .hbm, ⟨49, _⟩ => ⟨S262144x10, .f32⟩
  | .hbm, ⟨50, _⟩ => ⟨S1x10, .f32⟩
  | .hbm, ⟨51, _⟩ => ⟨S262144x10, .f32⟩
  | .hbm, ⟨52, _⟩ => ⟨S262144x10, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  reducesTo_S262144x512_S262144_d1 : S262144x512.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x512_0_1 : S262144x1.BroadcastsInDim S262144x512 (![0, 1] : Fin 2 → Fin S262144x512.rank)
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S100_S1x100_1 : S100.BroadcastsInDim S1x100 (![1] : Fin 1 → Fin S1x100.rank)
  bcast_S1x100_S262144x100_0_1 : S1x100.BroadcastsInDim S262144x100 (![0, 1] : Fin 2 → Fin S262144x100.rank)
  bcast_S_S262144x100 : S_.BroadcastsInDim S262144x100 (![] : Fin 0 → Fin S262144x100.rank)
  bcast_S10_S1x10_1 : S10.BroadcastsInDim S1x10 (![1] : Fin 1 → Fin S1x10.rank)
  bcast_S1x10_S262144x10_0_1 : S1x10.BroadcastsInDim S262144x10 (![0, 1] : Fin 2 → Fin S262144x10.rank)
  dot_S262144x512_S512x100_S262144x100_1_0_0_1_n_n_wf : DotDims.WF S262144x512 S512x100 S262144x100 [1] [0] [0] [1] [] []
  dot_S262144x100_S100x10_S262144x10_1_0_0_1_n_n_wf : DotDims.WF S262144x100 S100x10 S262144x10 [1] [0] [0] [1] [] []

variable [Facts₀]

def dot_S262144x512_S512x100_S262144x100_1_0_0_1_n_n : DotDims S262144x512 S512x100 S262144x100 where
  lhsContracting := [1]
  rhsContracting := [0]
  lhsNonContracting := [0]
  rhsNonContracting := [1]
  lhsBatch := []
  rhsBatch := []
  wf := dot_S262144x512_S512x100_S262144x100_1_0_0_1_n_n_wf
def dot_S262144x100_S100x10_S262144x10_1_0_0_1_n_n : DotDims S262144x100 S100x10 S262144x10 where
  lhsContracting := [1]
  rhsContracting := [0]
  lhsNonContracting := [0]
  rhsNonContracting := [1]
  lhsBatch := []
  rhsBatch := []
  wf := dot_S262144x100_S100x10_S262144x10_1_0_0_1_n_n_wf

class Facts : Prop extends Facts₀ where

variable [Facts]
-- ==== Proof.LibFinite.lean ====
/-
  General facts about finiteness on the extended reals, for certificates whose precondition says that every
  float input is finite and whose algebra (distributivity, cancellation) needs it.

  * `coe_sum`: the inclusion of the reals into the extended reals commutes with finite sums, so an identity
    between sums of finite entries can be proved over the reals and carried back.
  * `ofBool_one`, `inf_word`, `finite_of_abs_lt`: one element of a printed `|x| < +∞` test, read back — the
    f32 word `0x7F800000` is `+∞`, `|x|` is `max x (-x)`, and that is below `+∞` only when `x` is a real number.
-/
import Idealize.ShloMosaic.PureOps.Ideal
import Idealize.ShloMosaic.PureOps.Ideal.Laws

namespace Cert.LibFinite

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Boolean read as a one-bit word is the word 1 exactly when it is true. -/
theorem ofBool_one (b : Bool) : BitVec.ofBool b = 1#1 ↔ b = true := by cases b <;> decide

/-- The f32 word `0x7F800000` is `+∞`. -/
theorem inf_word : Ideal.ofBits .f32 0x7F800000#32 = ⊤ := by simp [Ideal.ofBits, Ideal.ieee]

/-- An extended real whose absolute value compares below `+∞` is neither infinity: `|x| = max x (-x)` is `+∞` at
    both. (The host's and the kernel's absolute value are one function on the extended reals.) -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, inf_word] at h
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨EReal.coe_ne_top r, EReal.coe_ne_bot r⟩

end Cert.LibFinite
-- ==== Proof.Spec.lean ====
/-
  One row of the network, on the extended reals.

  A row r of 512 numbers is normalised — its mean subtracted, the result scaled by the reciprocal square root of its
  variance plus a small constant, then by a gain γ and shifted by β —, mapped linearly to 100 numbers, each passed through
  the swish h ↦ h · σ(h) with σ the logistic function, and mapped linearly to 10 numbers.

  The variance enters as a parameter v, because it is written in two ways: as the mean of the squared deviations from the
  mean, and as the mean of the squares minus the square of the mean. For a row of real numbers the two agree
  (`var_eq`); at an infinite entry they need not, which is why the law asks that every entry of the row be finite.
-/
import Idealize.ShloMosaic.PureOps.Ideal
import Idealize.ShloMosaic.PureOps.Ideal.Laws
import Idealize.ShloMosaic.Lib.ValueIdx
import proofs.«144290_j39762807226554_2_alg».proof.Proof.LibFinite

noncomputable section

namespace Cert.NormMlp

open Idealize.ShloMosaic Idealize.ShloMosaic.ValueIdx

/-- The row length as the float word both programs divide by. -/
abbrev nW : EReal := Ideal.ofBits .f32 0x44000000#32
/-- The small constant added to the variance, as the float word both programs spell. -/
abbrev epsW : EReal := Ideal.ofBits .f32 0x3727C5AC#32

/-- The word of the row length denotes the real number 512. -/
theorem nW_eq : nW = ((512 : ℝ) : EReal) := by
  simp [Ideal.ofBits, Ideal.ieee, -EReal.coe_mul]; norm_num

/-- The word of 1.0 denotes 1. -/
theorem one_word : Ideal.ofBits .f32 0x3F800000#32 = 1 := by
  simp [Ideal.ofBits, Ideal.ieee, -EReal.coe_mul]; norm_num

/-- The mean of a row. -/
def mean (r : Fin 512 → EReal) : EReal := Ideal.div (∑ k, r k) nW

/-- The variance as the mean of the squared deviations from the mean. -/
def varCentered (r : Fin 512 → EReal) : EReal := Ideal.div (∑ k, (r k - mean r) * (r k - mean r)) nW

/-- The variance as the mean of the squares minus the square of the mean. -/
def varMoments (r : Fin 512 → EReal) : EReal := Ideal.div (∑ k, r k * r k) nW - mean r * mean r

/-- Entry k of the normalised row, for a variance v. -/
def normed (r : Fin 512 → EReal) (v : EReal) (γ β : Fin 512 → EReal) (k : Fin 512) : EReal :=
  (r k - mean r) * Ideal.rsqrt (v + epsW) * γ k + β k

/-- Entry j of the first linear map of the normalised row. -/
def hidden (r : Fin 512 → EReal) (v : EReal) (γ β : Fin 512 → EReal) (W1 : Fin 512 → Fin 100 → EReal)
    (b1 : Fin 100 → EReal) (j : Fin 100) : EReal :=
  (∑ k, normed r v γ β k * W1 k j) + b1 j

/-- The swish h · σ(h). -/
def swish (h : EReal) : EReal := h * Ideal.logistic h

/-- Entry o of the second linear map of the swished hidden row. -/
def outRow (r : Fin 512 → EReal) (v : EReal) (γ β : Fin 512 → EReal) (W1 : Fin 512 → Fin 100 → EReal)
    (b1 : Fin 100 → EReal) (W2 : Fin 100 → Fin 10 → EReal) (b2 : Fin 10 → EReal) (o : Fin 10) : EReal :=
  (∑ j, swish (hidden r v γ β W1 b1 j) * W2 j o) + b2 o

/-! ## The two variances agree on a finite row -/

/-- Over the reals the squared deviations from any μ sum to Σρ² − 2μ·Σρ + n·μ². -/
theorem sum_sq_centered {ι : Type*} [Fintype ι] (ρ : ι → ℝ) (μ : ℝ) :
    ∑ k, (ρ k - μ) * (ρ k - μ) = (∑ k, ρ k * ρ k) - 2 * μ * (∑ k, ρ k) + (Fintype.card ι : ℝ) * (μ * μ) := by
  have h : ∀ k, (ρ k - μ) * (ρ k - μ) = ρ k * ρ k - 2 * μ * ρ k + μ * μ := fun k => by ring
  simp only [h, Finset.sum_add_distrib, Finset.sum_sub_distrib, ← Finset.mul_sum, Finset.sum_const, Finset.card_univ,
    nsmul_eq_mul]
  ring

/-- With μ the mean of 512 reals, Σρ²/512 − μ² = Σ(ρ − μ)²/512: in the expansion above Σρ = 512·μ. -/
theorem var_real (ρ : Fin 512 → ℝ) :
    (∑ k, ρ k * ρ k) * (1 / 512) - (∑ k, ρ k) * (1 / 512) * ((∑ k, ρ k) * (1 / 512))
      = (∑ k, (ρ k - (∑ k, ρ k) * (1 / 512)) * (ρ k - (∑ k, ρ k) * (1 / 512))) * (1 / 512) := by
  rw [sum_sq_centered, Fintype.card_fin]; push_cast; ring

/-- On a row of finite entries the two variances are one number: the row is a row of reals, both sides are the
    inclusion of a real expression, and over the reals this is `var_real`. -/
theorem var_eq (r : Fin 512 → EReal) (hr : ∀ k, r k ≠ ⊤ ∧ r k ≠ ⊥) : varMoments r = varCentered r := by
  obtain ⟨ρ, hρ⟩ : ∃ ρ : Fin 512 → ℝ, ∀ k, r k = (ρ k : EReal) :=
    ⟨fun k => (r k).toReal, fun k => (EReal.coe_toReal (hr k).1 (hr k).2).symm⟩
  have hm : mean r = (((∑ k, ρ k) * (1 / 512) : ℝ) : EReal) := by
    unfold mean
    rw [nW_eq, Ideal.div_coe (by norm_num)]
    simp only [hρ]
    rw [← LibFinite.coe_sum, ← EReal.coe_mul]
  unfold varMoments varCentered
  rw [hm, nW_eq, Ideal.div_coe (by norm_num), Ideal.div_coe (by norm_num)]
  simp only [hρ, ← EReal.coe_sub, ← EReal.coe_mul, ← LibFinite.coe_sum]
  exact congrArg _ (var_real ρ)

/-! ## The whole result array -/

/-- The row coordinate of an index of the result array. -/
abbrev rowOf (i : (⟨2, ![262144, 10]⟩ : Shape).Idx) : Fin 262144 := ⟨(i 0).val, idx2_lt0 i⟩
/-- The column coordinate of an index of the result array. -/
abbrev colOf (i : (⟨2, ![262144, 10]⟩ : Shape).Idx) : Fin 10 := ⟨(i 1).val, idx2_lt1 i⟩

/-- The result array as one function of the seven argument arrays: entry (n, o) is entry o of the network's output on
    row n of x. The variance form `var` is a parameter. -/
def G (var : (Fin 512 → EReal) → EReal) (x : (⟨2, ![262144, 512]⟩ : Shape).Idx → EReal)
    (γ β : (⟨1, ![512]⟩ : Shape).Idx → EReal) (W1 : (⟨2, ![512, 100]⟩ : Shape).Idx → EReal)
    (b1 : (⟨1, ![100]⟩ : Shape).Idx → EReal) (W2 : (⟨2, ![100, 10]⟩ : Shape).Idx → EReal)
    (b2 : (⟨1, ![10]⟩ : Shape).Idx → EReal) : (⟨2, ![262144, 10]⟩ : Shape).Idx → EReal :=
  fun i => outRow (fun k => x (ix2 (rowOf i) k)) (var fun k => x (ix2 (rowOf i) k)) (fun k => γ (ix1 k)) (fun k => β (ix1 k))
    (fun k j => W1 (ix2 k j)) (fun j => b1 (ix1 j)) (fun j o => W2 (ix2 j o)) (fun o => b2 (ix1 o)) (colOf i)

/-- Where every entry of x is finite the two variance forms give one result array. -/
theorem G_var_eq (x : (⟨2, ![262144, 512]⟩ : Shape).Idx → EReal) (hx : ∀ j, x j ≠ ⊤ ∧ x j ≠ ⊥)
    (γ β : (⟨1, ![512]⟩ : Shape).Idx → EReal) (W1 : (⟨2, ![512, 100]⟩ : Shape).Idx → EReal)
    (b1 : (⟨1, ![100]⟩ : Shape).Idx → EReal) (W2 : (⟨2, ![100, 10]⟩ : Shape).Idx → EReal)
    (b2 : (⟨1, ![10]⟩ : Shape).Idx → EReal) :
    G varMoments x γ β W1 b1 W2 b2 = G varCentered x γ β W1 b1 W2 b2 := by
  funext i
  unfold G
  rw [var_eq _ fun k => hx _]

end Cert.NormMlp

end
-- ==== Proof.RefRow.lean ====
/-
  The reference program read as the row mathematics.

  Each stage of the reference is read at explicit coordinates (n a row of x, k a feature, j a hidden unit, o an output)
  and identified with the corresponding piece of the specification: the mean of row n, its variance as the mean of the
  squared deviations, entry k of the normalised row, entry j of the first linear map, its swish — the reference spells
  the logistic function as 1 / (1 + e^(-h)), which is its definition on the extended reals —, and entry o of the second
  linear map. The last stage is the whole result array with the centred variance.
-/
import proofs.«144290_j39762807226554_2_alg».proof.Proof.Gen.ReferenceIdeal.Read
import proofs.«144290_j39762807226554_2_alg».proof.Proof.Spec
import Idealize.ShloMosaic.Lib.ValueIdx

noncomputable section

namespace Cert.NormMlp.Ref

open Cert.ReferenceIdeal Cert.ReferenceIdeal.Read Cert.NormMlp
open Idealize.ShloMosaic Idealize.ShloMosaic.ValueIdx

variable (x0 : (⟨S262144x512, .f32⟩ : BufTy).Contents (Elt Ideal))
variable (x1 x2 : (⟨S512, .f32⟩ : BufTy).Contents (Elt Ideal))
variable (x3 : (⟨S512x100, .f32⟩ : BufTy).Contents (Elt Ideal))
variable (x4 : (⟨S100, .f32⟩ : BufTy).Contents (Elt Ideal))
variable (x5 : (⟨S100x10, .f32⟩ : BufTy).Contents (Elt Ideal))
variable (x6 : (⟨S10, .f32⟩ : BufTy).Contents (Elt Ideal))

/-- Row n of x. -/
abbrev row (n : Fin 262144) : Fin 512 → EReal := fun k => x0 (ix2 n k)

/-- The column of row means, at any index whose row coordinate is n, is the mean of row n. -/
theorem ref_mean (n : Fin 262144) (i : S262144x1.Idx) (h0 : (i 0).val = n.val) :
    val_main_v3 (F := Ideal) x0 i = mean (row x0 n) := by
  rw [val_main_v3_apply, val_main_v1_apply, val_main_v0_apply, val_main_v2_apply, val_main_cst_0_apply, val_main_cst_apply]
  simp only [Ideal.hostDivf_def, Ideal.ofBits_def, Ideal.ofBits_zero_f32, zero_add]
  unfold mean
  refine congrArg (fun s => Ideal.div s nW) (Finset.sum_congr rfl fun k _ => congrArg x0 ?_)
  funext a; apply Fin.ext
  match a with
  | ⟨0, _⟩ => exact h0
  | ⟨1, _⟩ => rfl

/-- The column of row variances, at any index whose row coordinate is n, is the centred variance of row n. -/
theorem ref_var (n : Fin 262144) (i : S262144x1.Idx) (h0 : (i 0).val = n.val) :
    val_main_v10 (F := Ideal) x0 i = varCentered (row x0 n) := by
  rw [val_main_v10_apply, val_main_v8_apply, val_main_v7_apply, val_main_v9_apply, val_main_cst_2_apply, val_main_cst_1_apply]
  simp only [Ideal.hostDivf_def, Ideal.ofBits_def, Ideal.ofBits_zero_f32, zero_add]
  unfold varCentered
  refine congrArg (fun s => Ideal.div s nW) (Finset.sum_congr rfl fun k _ => ?_)
  have e : idx_main_v7 (idx_main_v8 i) k = ix2 n k := by
    funext a; apply Fin.ext
    match a with
    | ⟨0, _⟩ => exact h0
    | ⟨1, _⟩ => rfl
  rw [e, val_main_v6_apply, val_main_v5_apply, val_main_v4_apply, ref_mean x0 n _ rfl]
  simp only [Ideal.mulf_def, Ideal.subf_def]

/-- Entry (n, k) of the normalised array is entry k of the normalised row n, with the centred variance. -/
theorem ref_normed (n : Fin 262144) (k : Fin 512) :
    val_main_v23 (F := Ideal) x0 x1 x2 (ix2 n k)
      = normed (row x0 n) (varCentered (row x0 n)) (fun k => x1 (ix1 k)) (fun k => x2 (ix1 k)) k := by
  have e1 : idx_main_v18 (idx_main_v19 (ix2 n k)) = ix1 k := funext fun a => Fin.ext (by match a with | ⟨0, _⟩ => rfl)
  have e2 : idx_main_v21 (idx_main_v22 (ix2 n k)) = ix1 k := funext fun a => Fin.ext (by match a with | ⟨0, _⟩ => rfl)
  rw [val_main_v23_apply, val_main_v20_apply, val_main_v17_apply, val_main_v12_apply, val_main_v11_apply,
    val_main_v16_apply, val_main_v15_apply, val_main_v14_apply, val_main_v13_apply, val_main_cst_3_apply,
    val_main_v19_apply, val_main_v18_apply, val_main_v22_apply, val_main_v21_apply, e1, e2,
    ref_mean x0 n _ rfl, ref_var x0 n _ rfl]
  simp only [Ideal.addf_def, Ideal.mulf_def, Ideal.subf_def, Ideal.hostUnary_rsqrt_def, Ideal.ofBits_def]
  rfl

/-- Entry (n, j) of the first linear map is entry j of the hidden row of row n. -/
theorem ref_hidden (n : Fin 262144) (j : Fin 100) :
    val_main_v27 (F := Ideal) x0 x1 x2 x3 x4 (ix2 n j)
      = hidden (row x0 n) (varCentered (row x0 n)) (fun k => x1 (ix1 k)) (fun k => x2 (ix1 k))
          (fun k j => x3 (ix2 k j)) (fun j => x4 (ix1 j)) j := by
  have e0 : idx_main_v25 (idx_main_v26 (ix2 n j)) = ix1 j := funext fun a => Fin.ext (by match a with | ⟨0, _⟩ => rfl)
  rw [val_main_v27_apply, val_main_v24_apply, val_main_v26_apply, val_main_v25_apply, e0]
  simp only [Ideal.addf_def]
  unfold hidden
  refine congrArg (· + x4 (ix1 j)) (Finset.sum_congr rfl fun k _ => ?_)
  have e1 : lidx_main_v24 (ix2 n j) k = ix2 n k :=
    funext fun a => Fin.ext (by match a with | ⟨0, _⟩ => rfl | ⟨1, _⟩ => rfl)
  have e2 : ridx_main_v24 (ix2 n j) k = ix2 k j :=
    funext fun a => Fin.ext (by match a with | ⟨0, _⟩ => rfl | ⟨1, _⟩ => rfl)
  rw [e1, e2, ref_normed]

/-- Entry (n, j) after the swish, the logistic function spelt 1 / (1 + e^(-h)). -/
theorem ref_swish (n : Fin 262144) (j : Fin 100) :
    val_main_v34 (F := Ideal) x0 x1 x2 x3 x4 (ix2 n j)
      = swish (hidden (row x0 n) (varCentered (row x0 n)) (fun k => x1 (ix1 k)) (fun k => x2 (ix1 k))
          (fun k j => x3 (ix2 k j)) (fun j => x4 (ix1 j)) j) := by
  rw [val_main_v34_apply, val_main_v33_apply, val_main_v32_apply, val_main_cst_5_apply, val_main_v31_apply,
    val_main_v30_apply, val_main_cst_4_apply, val_main_v29_apply, val_main_v28_apply, ref_hidden]
  simp only [Ideal.mulf_def, Ideal.hostDivf_def, Ideal.addf_def, Ideal.hostUnary_exp_def, Ideal.hostNegf_def,
    Ideal.negf_def, Ideal.ofBits_def, one_word]
  rfl

/-- Entry (n, o) of the reference's result is entry o of the network's output on row n. -/
theorem ref_out (n : Fin 262144) (o : Fin 10) :
    val_main_v38 (F := Ideal) x0 x1 x2 x3 x4 x5 x6 (ix2 n o)
      = outRow (row x0 n) (varCentered (row x0 n)) (fun k => x1 (ix1 k)) (fun k => x2 (ix1 k))
          (fun k j => x3 (ix2 k j)) (fun j => x4 (ix1 j)) (fun j o => x5 (ix2 j o)) (fun o => x6 (ix1 o)) o := by
  have e0 : idx_main_v36 (idx_main_v37 (ix2 n o)) = ix1 o := funext fun a => Fin.ext (by match a with | ⟨0, _⟩ => rfl)
  rw [val_main_v38_apply, val_main_v35_apply, val_main_v37_apply, val_main_v36_apply, e0]
  simp only [Ideal.addf_def]
  unfold outRow
  refine congrArg (· + x6 (ix1 o)) (Finset.sum_congr rfl fun j _ => ?_)
  have e1 : lidx_main_v35 (ix2 n o) j = ix2 n j :=
    funext fun a => Fin.ext (by match a with | ⟨0, _⟩ => rfl | ⟨1, _⟩ => rfl)
  have e2 : ridx_main_v35 (ix2 n o) j = ix2 j o :=
    funext fun a => Fin.ext (by match a with | ⟨0, _⟩ => rfl | ⟨1, _⟩ => rfl)
  rw [e1, e2, ref_swish]

/-- The reference's result array is the specification's, with the centred variance. -/
theorem ref_eq_G : val_main_v38 (F := Ideal) x0 x1 x2 x3 x4 x5 x6 = G varCentered x0 x1 x2 x3 x4 x5 x6 := by
  funext i
  obtain ⟨n, o, rfl⟩ : ∃ (n : Fin 262144) (o : Fin 10), i = ix2 n o := ⟨i 0, i 1, eq_ix2 i⟩
  exact ref_out x0 x1 x2 x3 x4 x5 x6 n o

end Cert.NormMlp.Ref

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.KernelRow.lean ====
/-
  One block of the kernel read as the row mathematics.

  A grid point loads 4096 rows of x and all of γ, β, W1, b1, W2, b2, and stores a 4096 × 10 block. The body's
  arithmetic is restated here as a short chain of array-valued definitions — the row sums, the column of row means, the
  column of row variances in the form mean of squares minus squared mean, the normalised block, the first matrix product
  plus b1, and the second matrix product of its swish — which is the body's own term. Each link is then read at explicit
  coordinates (p a row of the block, k a feature, j a hidden unit, o an output) as the corresponding piece of the
  specification on row p of the block. Changes of float format are the identity on the extended reals, and a matrix
  product accumulated into zeros is the plain sum over the contracted coordinate.
-/
import proofs.«144290_j39762807226554_2_alg».proof.Proof.Gen.KernelIdeal.Value
import proofs.«144290_j39762807226554_2_alg».proof.Proof.Spec
import proofs.«144290_j39762807226554_2_alg».proof.Proof.LibKeepdims
import proofs.«144290_j39762807226554_2_alg».proof.Proof.LibContractPlain
import Idealize.ShloMosaic.Lib.ValueLayout
import Idealize.ShloMosaic.Lib.ValueIdx
import Idealize.ShloMosaic.PureOps.Ideal.Laws

noncomputable section

namespace Cert.NormMlp.Ker

open Cert.KernelIdeal Cert.KernelIdeal.Gen Cert.NormMlp
open Idealize.ShloMosaic Idealize.ShloMosaic.ValueIdx

/-- The reciprocal square root and the logistic function act entry by entry. -/
theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-! ## Row statistics of a 4096 × 512 block -/

/-- The sum of each row. -/
def rowSums (v : FVec Ideal S4096x512 .f32) : FVec Ideal S4096 .f32 :=
  multiReduction .add [1] S4096 v 0x00000000#32 reduces_S4096x512_S4096 (.inl rfl) rfl

theorem rowSums_apply (v : FVec Ideal S4096x512 .f32) (p : Fin 4096) :
    rowSums v (ix1 p) = ∑ k : Fin 512, v (ix2 p k) := by
  unfold rowSums
  refine (Ideal.multiReduction_add_single v 0x00000000#32 reduces_S4096x512_S4096 (.inl rfl) rfl (ix1 p)).trans ?_
  exact Finset.sum_congr rfl fun k _ =>
    congrArg v (funext fun a => Fin.ext (by match a with | ⟨0, _⟩ => rfl | ⟨1, _⟩ => rfl))

/-- The column of row means: each row sum divided by the row length. -/
def colMeans (v : FVec Ideal S4096x512 .f32) : FVec Ideal S4096x1 .f32 :=
  divf (shapeCast S4096x1 (rowSums v) shapeCasts_S4096_S4096x1) (broadcast S4096x1 (Scalar.ofBits .f32 0x44000000#32))

theorem colMeans_apply (v : FVec Ideal S4096x512 .f32) (p : Fin 4096) :
    colMeans v (ix2 p (0 : Fin 1)) = Ideal.div (∑ k : Fin 512, v (ix2 p k)) nW := by
  unfold colMeans
  rw [divf_apply, Keepdims.shapeCast_a_a1_apply, rowSums_apply, broadcast_apply]
  rfl

/-- The column of row variances, as the mean of the squares minus the square of the mean. -/
def colVars (v : FVec Ideal S4096x512 .f32) : FVec Ideal S4096x1 .f32 :=
  subf (colMeans (mulf v v)) (mulf (colMeans v) (colMeans v))

theorem colVars_apply (v : FVec Ideal S4096x512 .f32) (p : Fin 4096) :
    colVars v (ix2 p (0 : Fin 1)) = varMoments fun k => v (ix2 p k) := by
  unfold colVars
  rw [subf_apply, mulf_apply, colMeans_apply, colMeans_apply]
  simp only [mulf_apply]
  rfl

/-! ## The normalised block -/

/-- The block with each row's mean subtracted, scaled by the reciprocal square root of its variance plus the small
    constant, then by γ along the row, and shifted by β. -/
def normedBlock (P0 : FVec Ideal S4096x512 .f32) (P1 P2 : FVec Ideal S512 .f32) : FVec Ideal S4096x512 .f32 :=
  addf
    (mulf
      (mulf (subf P0 (broadcastTo S4096x512 (colMeans P0) broadcasts_S4096x1_S4096x512))
        (broadcastTo S4096x512
          (rsqrt (addf (colVars P0) (broadcast S4096x1 (Scalar.ofBits .f32 0x3727C5AC#32))))
          broadcasts_S4096x1_S4096x512))
      (broadcastTo S4096x512 (shapeCast S1x512 P1 shapeCasts_S512_S1x512) broadcasts_S1x512_S4096x512))
    (broadcastTo S4096x512 (shapeCast S1x512 P2 shapeCasts_S512_S1x512) broadcasts_S1x512_S4096x512)

theorem normedBlock_apply (P0 : FVec Ideal S4096x512 .f32) (P1 P2 : FVec Ideal S512 .f32) (p : Fin 4096) (k : Fin 512) :
    normedBlock P0 P1 P2 (ix2 p k)
      = normed (fun k => P0 (ix2 p k)) (varMoments fun k => P0 (ix2 p k)) (fun k => P1 (ix1 k)) (fun k => P2 (ix1 k)) k := by
  unfold normedBlock
  rw [addf_apply, mulf_apply, mulf_apply, subf_apply, Keepdims.broadcastTo_a1_ab_apply, Keepdims.broadcastTo_a1_ab_apply,
    broadcastTo_1b_ab_apply, broadcastTo_1b_ab_apply, shapeCast_a_1a_apply, shapeCast_a_1a_apply, rsqrt_apply, addf_apply,
    colVars_apply, colMeans_apply, broadcast_apply]
  rfl

/-! ## The first linear map, the swish, the second linear map -/

/-- The normalised block times W1, plus b1 along each row. -/
def hiddenBlock (P0 : FVec Ideal S4096x512 .f32) (P1 P2 : FVec Ideal S512 .f32) (P3 : FVec Ideal S512x100 .f32)
    (P4 : FVec Ideal S100 .f32) : FVec Ideal S4096x100 .f32 :=
  addf
    (matmul dot_S4096x512_S512x100_S4096x100_1_0_0_1_n_n none (truncf .bf16 (normedBlock P0 P1 P2) bitsLt_bf16_f32)
      (truncf .bf16 P3 bitsLt_bf16_f32) (constant S4096x100 .f32 0x00000000#32))
    (broadcastTo S4096x100 (shapeCast S1x100 P4 shapeCasts_S100_S1x100) broadcasts_S1x100_S4096x100)

theorem hiddenBlock_apply (P0 : FVec Ideal S4096x512 .f32) (P1 P2 : FVec Ideal S512 .f32) (P3 : FVec Ideal S512x100 .f32)
    (P4 : FVec Ideal S100 .f32) (p : Fin 4096) (j : Fin 100) :
    hiddenBlock P0 P1 P2 P3 P4 (ix2 p j)
      = hidden (fun k => P0 (ix2 p k)) (varMoments fun k => P0 (ix2 p k)) (fun k => P1 (ix1 k)) (fun k => P2 (ix1 k))
          (fun k j => P3 (ix2 k j)) (fun j => P4 (ix1 j)) j := by
  unfold hiddenBlock
  rw [addf_apply, broadcastTo_1b_ab_apply, shapeCast_a_1a_apply,
    Lib.ContractPlain.matmulZero_apply dot_S4096x512_S512x100_S4096x100_1_0_0_1_n_n rfl none
      (truncf .bf16 (normedBlock P0 P1 P2) bitsLt_bf16_f32) (truncf .bf16 P3 bitsLt_bf16_f32) p j]
  simp only [truncf_apply, normedBlock_apply]
  rfl

/-- The swish of the hidden block times W2. -/
def outBlock (P0 : FVec Ideal S4096x512 .f32) (P1 P2 : FVec Ideal S512 .f32) (P3 : FVec Ideal S512x100 .f32)
    (P4 : FVec Ideal S100 .f32) (P5 : FVec Ideal S100x10 .f32) : FVec Ideal S4096x10 .f32 :=
  matmul dot_S4096x100_S100x10_S4096x10_1_0_0_1_n_n none
    (truncf .bf16 (mulf (hiddenBlock P0 P1 P2 P3 P4) (logistic (hiddenBlock P0 P1 P2 P3 P4))) bitsLt_bf16_f32)
    (truncf .bf16 P5 bitsLt_bf16_f32) (constant S4096x10 .f32 0x00000000#32)

theorem outBlock_apply (P0 : FVec Ideal S4096x512 .f32) (P1 P2 : FVec Ideal S512 .f32) (P3 : FVec Ideal S512x100 .f32)
    (P4 : FVec Ideal S100 .f32) (P5 : FVec Ideal S100x10 .f32) (p : Fin 4096) (o : Fin 10) :
    outBlock P0 P1 P2 P3 P4 P5 (ix2 p o)
      = ∑ j : Fin 100, swish (hidden (fun k => P0 (ix2 p k)) (varMoments fun k => P0 (ix2 p k)) (fun k => P1 (ix1 k))
          (fun k => P2 (ix1 k)) (fun k j => P3 (ix2 k j)) (fun j => P4 (ix1 j)) j) * P5 (ix2 j o) := by
  unfold outBlock
  rw [Lib.ContractPlain.matmulZero_apply dot_S4096x100_S100x10_S4096x10_1_0_0_1_n_n rfl none
      (truncf .bf16 (mulf (hiddenBlock P0 P1 P2 P3 P4) (logistic (hiddenBlock P0 P1 P2 P3 P4))) bitsLt_bf16_f32)
      (truncf .bf16 P5 bitsLt_bf16_f32) p o]
  simp only [truncf_apply, mulf_apply, logistic_apply, hiddenBlock_apply]
  rfl

/-- The chain above is the body's own term for the value it stores, before b2 is added. -/
theorem pay_eq (P0 : FVec Ideal S4096x512 .f32) (P1 P2 : FVec Ideal S512 .f32) (P3 : FVec Ideal S512x100 .f32)
    (P4 : FVec Ideal S100 .f32) (P5 : FVec Ideal S100x10 .f32) :
    k0_pay2 (F := Ideal) P0 P1 P2 P3 P4 P5 = outBlock P0 P1 P2 P3 P4 P5 := rfl

/-- Entry (p, o) of the block a grid point stores is entry o of the network's output on row p of the x block, with
    the variance in the form mean of squares minus squared mean. -/
theorem block_apply (P0 : FVec Ideal S4096x512 .f32) (P1 P2 : FVec Ideal S512 .f32) (P3 : FVec Ideal S512x100 .f32)
    (P4 : FVec Ideal S100 .f32) (P5 : FVec Ideal S100x10 .f32) (P6 : FVec Ideal S10 .f32) (p : Fin 4096) (o : Fin 10) :
    Cert.KernelIdeal.Value.E7 (F := Ideal) P0 P1 P2 P3 P4 P5 P6 (ix2 p o)
      = outRow (fun k => P0 (ix2 p k)) (varMoments fun k => P0 (ix2 p k)) (fun k => P1 (ix1 k)) (fun k => P2 (ix1 k))
          (fun k j => P3 (ix2 k j)) (fun j => P4 (ix1 j)) (fun j o => P5 (ix2 j o)) (fun o => P6 (ix1 o)) o := by
  have e0 : Cert.KernelIdeal.Value.ix7_0 (ix2 p o) = ix2 p o :=
    funext fun a => Fin.ext (by match a with | ⟨0, _⟩ => rfl | ⟨1, _⟩ => rfl)
  have e1 : Cert.KernelIdeal.Value.ix7_1 (ix2 p o) = ix1 o :=
    funext fun a => Fin.ext (by match a with | ⟨0, _⟩ => rfl)
  show k0_pay2 (F := Ideal) P0 P1 P2 P3 P4 P5 (Cert.KernelIdeal.Value.ix7_0 (ix2 p o))
      + P6 (Cert.KernelIdeal.Value.ix7_1 (ix2 p o)) = _
  rw [e0, e1, pay_eq, outBlock_apply]
  rfl

end Cert.NormMlp.Ker

end
-- ==== Proof.Blocks.lean ====
/-
  From the blocks to the whole result array.

  Grid point t loads rows 4096·t … 4096·t + 4095 of x and the whole of every other argument, and writes back rows
  4096·t … 4096·t + 4095 of the result. So what it writes back is those rows of the specification's array (with the
  variance in the form mean of squares minus squared mean): entry (p, o) of its block is the network's output on row p of
  its x block, which is row 4096·t + p of x. The 64 blocks cover every row, so the array after the run is that array.
-/
import proofs.«144290_j39762807226554_2_alg».proof.Proof.Gen.KernelIdeal.Value
import proofs.«144290_j39762807226554_2_alg».proof.Proof.KernelRow
import proofs.«144290_j39762807226554_2_alg».proof.Proof.Spec
import Idealize.ShloMosaic.Lib.Pipeline.Value

noncomputable section

namespace Cert.NormMlp.Blocks

open Cert.KernelIdeal Cert.KernelIdeal.Gen Cert.NormMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The specification's array of the argument arrays as the region finds them. -/
abbrev GK (c : Dev nD) : S262144x10.Idx → EReal :=
  G varMoments (V m c main_arg0) (V m c main_arg1) (V m c main_arg2) (V m c main_arg3) (V m c main_arg4) (V m c main_arg5)
    (V m c main_arg6)

/-- The printed index maps, decided over the 64 grid points: the x window and the result window sit at block row t,
    block column 0; every other window stays at block 0. -/
theorem idx_facts : ∀ t : Fin cfg0.N,
    win0_0.index t (0 : Fin 2) = t.val ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 ∧ t.val < 64 :=
  (by decide +kernel : ∀ t : Fin grid0.N, _)

/-- Every block row of the result is some point's. -/
theorem idx_onto : ∀ q : Fin 64, ∃ t : Fin cfg0.N, win0_7.index t (0 : Fin 2) = q.val ∧ win0_7.index t (1 : Fin 2) = 0 :=
  (by decide +kernel : ∀ q : Fin 64, ∃ t : Fin grid0.N, win0_7.index t (0 : Fin 2) = q.val ∧ win0_7.index t (1 : Fin 2) = 0)

/-- A stored block against the array, over variables: if row p of the x block is row n of x, the other blocks are the
    whole arrays, and the array index i is (n, o) for the block index y = (p, o), then the block's entry at y is the
    specification's at i. -/
theorem block_row (X0 : S262144x512.Idx → EReal) (X1 X2 : S512.Idx → EReal) (X3 : S512x100.Idx → EReal)
    (X4 : S100.Idx → EReal) (X5 : S100x10.Idx → EReal) (X6 : S10.Idx → EReal)
    (B0 : FVec Ideal S4096x512 .f32) (B1 B2 : FVec Ideal S512 .f32) (B3 : FVec Ideal S512x100 .f32)
    (B4 : FVec Ideal S100 .f32) (B5 : FVec Ideal S100x10 .f32) (B6 : FVec Ideal S10 .f32)
    (y : S4096x10.Idx) (i : S262144x10.Idx)
    (h0 : ∀ k : Fin 512, B0 (ix2 (⟨(y 0).val, idx2_lt0 y⟩ : Fin 4096) k) = X0 (ix2 (rowOf i) k))
    (hc : (i 1).val = (y 1).val)
    (h1 : B1 = X1) (h2 : B2 = X2) (h3 : B3 = X3) (h4 : B4 = X4) (h5 : B5 = X5) (h6 : B6 = X6) :
    Cert.KernelIdeal.Value.E7 (F := Ideal) B0 B1 B2 B3 B4 B5 B6 y = G varMoments X0 X1 X2 X3 X4 X5 X6 i := by
  subst h1 h2 h3 h4 h5 h6
  obtain ⟨p, o, rfl⟩ : ∃ (p : Fin 4096) (o : Fin 10), y = ix2 p o := ⟨y 0, y 1, eq_ix2 y⟩
  rw [Ker.block_apply]
  unfold G
  have e : (fun k => B0 (ix2 p k)) = fun k => X0 (ix2 (rowOf i) k) := funext h0
  have eo : colOf i = o := Fin.ext hc
  rw [e, eo]

/-- WHAT POINT t WRITES BACK is block t of the specification's array. -/
theorem flushed_eq (c : Dev nD) (t : Fin cfg0.N) :
    (dats m 0 c).flushed 7 t = ((cfg0.win 7).blk t).view.read (Elt Ideal) (GK m c) := by
  rw [Cert.KernelIdeal.Value.flushed7]
  unfold out0_7
  simp only [View.ld_unit_zero (S := S4096x512) hz2, View.ld_unit_zero (S := S512) hz1,
    View.ld_unit_zero (S := S512x100) hz2, View.ld_unit_zero (S := S100) hz1, View.ld_unit_zero (S := S100x10) hz2,
    View.ld_unit_zero (S := S10) hz1]
  obtain ⟨e00, e01, e1, e2, e30, e31, e4, e50, e51, e6, e70, e71, ht⟩ := idx_facts t
  funext y
  refine Eq.trans (b := Cert.KernelIdeal.Value.E7 (F := Ideal) (iblk m c 0 t) (iblk m c 1 t) (iblk m c 2 t)
    (iblk m c 3 t) (iblk m c 4 t) (iblk m c 5 t) (iblk m c 6 t) y)
    (Cert.KernelIdeal.Value.canon7_eq (F := Ideal) (iblk m c 0 t) (iblk m c 1 t) (iblk m c 2 t) (iblk m c 3 t)
      (iblk m c 4 t) (iblk m c 5 t) (iblk m c 6 t) y) ?_
  show _ = GK m c (((cfg0.win 7).blk t).view.emb y)
  have hy0 : (y 0).val < 4096 := (y 0).isLt
  have hy1 : (y 1).val < 10 := (y 1).isLt
  refine block_row (V m c main_arg0) (V m c main_arg1) (V m c main_arg2) (V m c main_arg3) (V m c main_arg4)
    (V m c main_arg5) (V m c main_arg6) (iblk m c 0 t) (iblk m c 1 t) (iblk m c 2 t) (iblk m c 3 t) (iblk m c 4 t)
    (iblk m c 5 t) (iblk m c 6 t) y (((cfg0.win 7).blk t).view.emb y) ?_ ?_ ?_ ?_ ?_ ?_ ?_ ?_
  · intro k
    have hk : k.val < 512 := k.isLt
    show V m c main_arg0 (((cfg0.win 0).blk t).view.emb (ix2 (⟨(y 0).val, idx2_lt0 y⟩ : Fin 4096) k)) = V m c main_arg0 _
    refine congrArg (V m c main_arg0) (funext fun a => Fin.ext ?_)
    match a with
    | ⟨0, _⟩ =>
      show win0_0.index t (0 : Fin 2) * 4096 + 1 * (y 0).val = win0_7.index t (0 : Fin 2) * 4096 + 1 * (y 0).val
      omega
    | ⟨1, _⟩ =>
      show win0_0.index t (1 : Fin 2) * 512 + 1 * k.val = k.val
      omega
  · show win0_7.index t (1 : Fin 2) * 10 + 1 * (y 1).val = (y 1).val
    omega
  · funext z
    have hz : (z 0).val < 512 := (z 0).isLt
    show V m c main_arg1 (((cfg0.win 1).blk t).view.emb z) = V m c main_arg1 z
    refine congrArg (V m c main_arg1) (funext fun a => Fin.ext ?_)
    match a with
    | ⟨0, _⟩ => show win0_1.index t (0 : Fin 1) * 512 + 1 * (z 0).val = (z 0).val; omega
  · funext z
    show V m c main_arg2 (((cfg0.win 2).blk t).view.emb z) = V m c main_arg2 z
    refine congrArg (V m c main_arg2) (funext fun a => Fin.ext ?_)
    match a with
    | ⟨0, _⟩ => show win0_2.index t (0 : Fin 1) * 512 + 1 * (z 0).val = (z 0).val; omega
  · funext z
    show V m c main_arg3 (((cfg0.win 3).blk t).view.emb z) = V m c main_arg3 z
    refine congrArg (V m c main_arg3) (funext fun a => Fin.ext ?_)
    match a with
    | ⟨0, _⟩ => show win0_3.index t (0 : Fin 2) * 512 + 1 * (z 0).val = (z 0).val; omega
    | ⟨1, _⟩ => show win0_3.index t (1 : Fin 2) * 100 + 1 * (z 1).val = (z 1).val; omega
  · funext z
    show V m c main_arg4 (((cfg0.win 4).blk t).view.emb z) = V m c main_arg4 z
    refine congrArg (V m c main_arg4) (funext fun a => Fin.ext ?_)
    match a with
    | ⟨0, _⟩ => show win0_4.index t (0 : Fin 1) * 100 + 1 * (z 0).val = (z 0).val; omega
  · funext z
    show V m c main_arg5 (((cfg0.win 5).blk t).view.emb z) = V m c main_arg5 z
    refine congrArg (V m c main_arg5) (funext fun a => Fin.ext ?_)
    match a with
    | ⟨0, _⟩ => show win0_5.index t (0 : Fin 2) * 100 + 1 * (z 0).val = (z 0).val; omega
    | ⟨1, _⟩ => show win0_5.index t (1 : Fin 2) * 10 + 1 * (z 1).val = (z 1).val; omega
  · funext z
    show V m c main_arg6 (((cfg0.win 6).blk t).view.emb z) = V m c main_arg6 z
    refine congrArg (V m c main_arg6) (funext fun a => Fin.ext ?_)
    match a with
    | ⟨0, _⟩ => show win0_6.index t (0 : Fin 1) * 10 + 1 * (z 0).val = (z 0).val; omega

/-- An index of the array is in point t's block iff each coordinate is in the block's range on its axis. -/
theorem mem_blk (t : Fin cfg0.N) (i : S262144x10.Idx) :
    i ∈ ((cfg0.win 7).blk t).view.set ↔ ∀ a : Fin 2, win0_7.index t a * S4096x10.size a ≤ (i a).val
      ∧ (i a).val < win0_7.index t a * S4096x10.size a + S4096x10.size a := by
  show i ∈ ((View.whole main_v0).slice (win0_7.rect t)).set ↔ _
  rw [View.set_slice_whole, Rect.mem_set_unit]
  exact Iff.rfl

/-- The blocks cover the array: row n lies in the block of point n / 4096. -/
theorem cover (i : S262144x10.Idx) :
    ∃ t : Fin cfg0.N, (cfg0.win 7).flush t = true ∧ i ∈ ((cfg0.win 7).blk t).view.set := by
  have hi0 : (i 0).val < 262144 := (i 0).isLt
  have hi1 : (i 1).val < 10 := (i 1).isLt
  obtain ⟨t, q0, q1⟩ := idx_onto ⟨(i 0).val / 4096, by omega⟩
  have q0' : win0_7.index t (0 : Fin 2) = (i 0).val / 4096 := q0
  refine ⟨t, flush0_7 t, ?_⟩
  rw [mem_blk]
  intro a
  match a with
  | ⟨0, _⟩ =>
    show win0_7.index t (0 : Fin 2) * 4096 ≤ (i 0).val ∧ (i 0).val < win0_7.index t (0 : Fin 2) * 4096 + 4096
    omega
  | ⟨1, _⟩ =>
    show win0_7.index t (1 : Fin 2) * 10 ≤ (i 1).val ∧ (i 1).val < win0_7.index t (1 : Fin 2) * 10 + 10
    omega

/-- THE ARRAY after the run is the specification's array of the arguments. -/
theorem final (c : Dev nD) : (dats m 0 c).arrAt 7 cfg0.N
    = G varMoments (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) :=
  (dats m 0 c).arrAt_eq_of_cover 7 (GK m c) (fun t _ => flushed_eq m c t) cover

/-- The kernel's run re-posted: the result array at the specification's function of the arguments, the arguments
    unchanged. -/
theorem run : θ_run defs (onTc (τ := τ) (main (F := Ideal))) ⟨m, fun _ => 0, ρ⟩ fun r => ∀ c : Dev nD,
      r.2.mem ((c : Thread nD τ).loc main_v0)
        = G varMoments (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks (F := Ideal) m ρ)

end Cert.NormMlp.Blocks

end
-- ==== Proof.Finite.lean ====
/-
  From the precondition to finiteness of x.

  The precondition is the conjunction, over the seven arguments, of "every entry has absolute value below +∞". Its first
  conjunct, read at one entry of x, says that entry is neither infinity — a real number —, which is what the variance
  identity needs. The other six conjuncts are not used: no law applied to γ, β, the weights or the biases needs them finite.
-/
import proofs.«144290_j39762807226554_2_alg».proof.Pre_finite_inputs
import proofs.«144290_j39762807226554_2_alg».proof.Proof.LibFinite
import Idealize.ShloMosaic.Lib.ReduceAll
import Idealize.ShloMosaic.Lib.Affine
import Idealize.ShloMosaic.Lib.ValueIdx

noncomputable section

namespace Cert.NormMlp.Finite

open Cert.Pre_finite_inputs Idealize.ShloMosaic

/-- The shape with no axes has one index. -/
instance : Subsingleton S_.Idx := ⟨fun a b => funext fun d => d.elim0⟩

/-- Where the precondition's test is all ones, every entry of x is a real number. -/
theorem x_finite [Cert.Pre_finite_inputs.Facts] (x0 : FVec Ideal S262144x512 .f32) (x1 x2 : FVec Ideal S512 .f32)
    (x3 : FVec Ideal S512x100 .f32) (x4 : FVec Ideal S100 .f32) (x5 : FVec Ideal S100x10 .f32) (x6 : FVec Ideal S10 .f32)
    (h : fn (F := Ideal) x0 x1 x2 x3 x4 x5 x6 = fun _ => 1#1) (j : S262144x512.Idx) : x0 j ≠ ⊤ ∧ x0 j ≠ ⊥ := by
  have h1 := congrFun h ValueIdx.ix0
  dsimp only [fn, fn_part1] at h1
  have a6 := (IntOp.andi_eq_one.1 h1).1
  have a5 := (IntOp.andi_eq_one.1 a6).1
  have a4 := (IntOp.andi_eq_one.1 a5).1
  have a3 := (IntOp.andi_eq_one.1 a4).1
  have a2 := (IntOp.andi_eq_one.1 a3).1
  have a1 := (IntOp.andi_eq_one.1 a2).1
  have e := Host.reduce_andi_all _ _ _ _ _ a1 j
  exact LibFinite.finite_of_abs_lt (x0 j) e

end Cert.NormMlp.Finite

end
-- ==== Proof.lean ====
/-
  A row-wise network — layer normalisation over 512 features, a linear map to 100 units, the swish h · σ(h), a linear
  map to 10 outputs — computed by a kernel over 64 blocks of 4096 rows, against the same network written in plain
  array operations.

  On the extended reals the two programs differ in one place. The kernel takes the variance of a row as the mean of its
  squares minus the square of its mean; the reference takes the mean of the squared deviations from the mean. For a
  row of real numbers these are one number (expand the square and use that the row sums to 512 times its mean); at an
  infinite entry they need not be, so the identity uses the precondition that every entry of x is finite. Everything
  else is the same function spelt twice: a change of float format is the identity, a matrix product accumulated into
  zeros is the plain sum over the contracted coordinate, a sum along a row is that sum in any order, and the logistic
  function is 1 / (1 + e^(-h)) by definition, at the infinities too.

  The specification (Proof/Spec.lean) states the result array as one function of the seven argument arrays, with the
  variance form as a parameter. The reference's result is that function with the centred variance (Proof/RefRow.lean);
  each block the kernel writes back is the matching 4096 rows of that function with the variance by moments
  (Proof/KernelRow.lean), and the blocks cover the array (Proof/Blocks.lean); every entry of x is a real number under
  the precondition (Proof/Finite.lean); so the two result arrays are equal, entry by entry.
-/
import proofs.«144290_j39762807226554_2_alg».proof.Defs
import proofs.«144290_j39762807226554_2_alg».proof.Proof.Gen.Kernel
import proofs.«144290_j39762807226554_2_alg».proof.Proof.Gen.Kernel.Skeleton
import proofs.«144290_j39762807226554_2_alg».proof.Proof.Gen.Kernel.Launch
import proofs.«144290_j39762807226554_2_alg».proof.Proof.Gen.Kernel.Points
import proofs.«144290_j39762807226554_2_alg».proof.Proof.Gen.Kernel.Frame
import proofs.«144290_j39762807226554_2_alg».proof.Proof.Gen.KernelIdeal
import proofs.«144290_j39762807226554_2_alg».proof.Proof.Gen.KernelIdeal.Skeleton
import proofs.«144290_j39762807226554_2_alg».proof.Proof.Gen.KernelIdeal.Launch
import proofs.«144290_j39762807226554_2_alg».proof.Proof.Gen.KernelIdeal.Points
import proofs.«144290_j39762807226554_2_alg».proof.Proof.Gen.KernelIdeal.Frame
import proofs.«144290_j39762807226554_2_alg».proof.Proof.Gen.ReferenceIdeal
import proofs.«144290_j39762807226554_2_alg».proof.Proof.Gen.Pre_finite_inputs
import proofs.«144290_j39762807226554_2_alg».proof.Proof.Gen.KernelIdeal.Value
import proofs.«144290_j39762807226554_2_alg».proof.Proof.Gen.ReferenceIdeal.Run
import proofs.«144290_j39762807226554_2_alg».proof.Proof.Gen.ReferenceIdeal.Read
import proofs.«144290_j39762807226554_2_alg».proof.Proof.Spec
import proofs.«144290_j39762807226554_2_alg».proof.Proof.RefRow
import proofs.«144290_j39762807226554_2_alg».proof.Proof.KernelRow
import proofs.«144290_j39762807226554_2_alg».proof.Proof.Blocks
import proofs.«144290_j39762807226554_2_alg».proof.Proof.Finite
import Idealize.ShloMosaic.Adequacy
import Idealize.ShloMosaic.Init

noncomputable section

namespace Cert.Proof

open Idealize.ShloMosaic Idealize.SL.Sem

/-- The kernel as printed runs to the end without a fault and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the arguments the kernel ends with the specification's array with the variance by
    moments, the reference with the specification's array with the centred variance; x being finite, these are one array. -/
theorem algebraic : Cert.algebraic_KernelIdeal_ReferenceIdeal := by
  intro m ρ m' ρ' hpre hagree
  refine ⟨_, Cert.NormMlp.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v38_eq, Cert.NormMlp.Ref.ref_eq_G, a0, a1, a2, a3, a4, a5, a6]
  exact (Cert.NormMlp.G_var_eq _ (fun j => Cert.NormMlp.Finite.x_finite _ _ _ _ _ _ _ (hpre c) j) _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
